-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : IVec S8192x8192 32) (main_arg1 : FVec F S8192 .f32) : IVec S_ 1 :=
  let main_v0 : FVec F S8192 .f32 := Host.absf main_arg1
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  main_v3
-- ==== Kernel.lean ====
abbrev S8192x8192 : Shape := ⟨2, ![8192, 8192]⟩
abbrev S8192 : Shape := ⟨1, ![8192]⟩
abbrev S8192x1 : Shape := ⟨2, ![8192, 1]⟩
abbrev S1024x2048 : Shape := ⟨2, ![1024, 2048]⟩
abbrev S1024x1 : Shape := ⟨2, ![1024, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x8192, .i32⟩
  | .hbm, ⟨1, _⟩ => ⟨S8192, .f32⟩
  | .hbm, ⟨2, _⟩ => ⟨S8192x1, .f32⟩
  | .hbm, ⟨3, _⟩ => ⟨S8192x8192, .f32⟩
  | .local _ .vmem, ⟨0, _⟩ => ⟨S1024x2048, .i32⟩
  | .local _ .vmem, ⟨1, _⟩ => ⟨S1024x2048, .i32⟩
  | .local _ .vmem, ⟨2, _⟩ => ⟨S1024x1, .f32⟩
  | .local _ .vmem, ⟨3, _⟩ => ⟨S1024x1, .f32⟩
  | .local _ .vmem, ⟨4, _⟩ => ⟨S1024x2048, .f32⟩
  | .local _ .vmem, ⟨5, _⟩ => ⟨S1024x2048, .f32⟩
  | _, _ => ⟨S8192x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S8192_S8192x1 : S8192.ShapeCasts S8192x1
  inb_S1024x2048_S1024x2048_0_0 : ∀ a, (![0, 0] : Fin 2 → Nat) a + S1024x2048.size a ≤ S1024x2048.size a
  h_S1024x2048 : 0 < S1024x2048.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x2048 : S1024x1.Broadcasts S1024x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .i32 = 32 ∨ (Rect.block (s := S8192x8192) S1024x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x8192.size a
  hwx0_2 : ∀ i : grid0.Coords, EltTy.bits .f32 = 32 ∨ (Rect.block (s := S8192x8192) S1024x2048.size (cc0_transform_2 i) (hinb0_2 i)).WholeWords (EltTy.packing .f32)

variable [Facts₀]

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8192 : Shape := ⟨1, ![8192]⟩
abbrev S_ : Shape := ⟨0, ![]⟩
abbrev S8192x1 : Shape := ⟨2, ![8192, 1]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .i32⟩
  | .hbm, ⟨1, _⟩ => ⟨S8192, .f32⟩
  | .hbm, ⟨2, _⟩ => ⟨S8192x8192, .f32⟩
  | .hbm, ⟨3, _⟩ => ⟨S_, .f32⟩
  | .hbm, ⟨4, _⟩ => ⟨S8192, .f32⟩
  | .hbm, ⟨5, _⟩ => ⟨S8192, .f32⟩
  | .hbm, ⟨6, _⟩ => ⟨S8192x1, .f32⟩
  | .hbm, ⟨7, _⟩ => ⟨S8192x8192, .f32⟩
  | .hbm, ⟨8, _⟩ => ⟨S8192x8192, .f32⟩
  | _, _ => ⟨S8192x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)

variable [Facts₀]

class Facts : Prop extends Facts₀ where

variable [Facts]
-- ==== Proof.RowDequant.lean ====
/-
  Row-wise dequantization as ONE function of the two argument arrays.  The weight matrix q holds integers, the
  vector s one statistic per row.  Entry (r, k) of the result is q (r, k) made a float, times row r's scale, and
  row r's scale is s r times the binary word both programs carry for the quotient 1/127.  The grouping
  q · (s · w) is the same in the kernel and in the reference, so no law of arithmetic is needed to join them: at every
  index the two programs apply the same three operations to the same three values, and the statement holds at any
  float instance.
-/
import Idealize.ShloMosaic.PureOps.Ideal
import Idealize.ShloMosaic.Lib.ValueIdx

noncomputable section

namespace Cert.RowDequant

open Idealize.ShloMosaic Idealize.ShloMosaic.ValueIdx

variable {F : FTy → Type} [FloatOps F]

/-- Entry (r, k) of the dequantized matrix: float (q (r, k)) · (s r · w), with w the word 0x3C010204 (the f32 nearest
    to 1/127), read at the instance F. -/
def rowDequant (q : (⟨2, ![8192, 8192]⟩ : Shape).Idx → Elt F .i32) (s : (⟨1, ![8192]⟩ : Shape).Idx → Elt F .f32) :
    (⟨2, ![8192, 8192]⟩ : Shape).Idx → Elt F .f32 :=
  fun i => FloatOps.mulf (FloatOps.sitofp .f32 (q i)) (FloatOps.mulf (s (ix1 (i 0))) (Scalar.ofBits .f32 0x3C010204#32))

/-- The same entry named by its two coordinates. -/
theorem rowDequant_ix2 (q : (⟨2, ![8192, 8192]⟩ : Shape).Idx → Elt F .i32) (s : (⟨1, ![8192]⟩ : Shape).Idx → Elt F .f32)
    (r : Fin 8192) (k : Fin 8192) :
    rowDequant q s (ix2 r k)
      = FloatOps.mulf (FloatOps.sitofp .f32 (q (ix2 r k))) (FloatOps.mulf (s (ix1 r)) (Scalar.ofBits .f32 0x3C010204#32)) := rfl

end Cert.RowDequant

end
-- ==== Proof.RefValue.lean ====
/-
  The reference computes the row-wise dequantization.  Its seven host operations are: the integer matrix made float;
  the scalar word of 1/127 spread over a vector of 8192 entries; the row statistics times that vector, entry by entry;
  the product vector laid as a column [8192, 1]; the column spread over the 8192 columns of a matrix; and the
  entrywise product of the two matrices.  Read at the index (r, k), the spread column gives the product vector's
  entry r, whatever k is, so the result's entry is float (q (r, k)) · (s r · w).
-/
import proofs.«164470_j85203561218574_2_alg».proof.Proof.Gen.ReferenceIdeal.Read
import proofs.«164470_j85203561218574_2_alg».proof.Proof.RowDequant

noncomputable section

namespace Cert.ReferenceIdeal.RefValue

open Cert.ReferenceIdeal Cert.ReferenceIdeal.Read Idealize.ShloMosaic Idealize.ShloMosaic.ValueIdx Cert.RowDequant

variable {F : FTy → Type} [FloatOps F]

/-- Through the two spreading operations, entry (r, k) of the matrix reads entry r of the vector. -/
theorem row_of_entry (i : S8192x8192.Idx) : idx_main_v3 (idx_main_v4 i) = ix1 (i 0) :=
  funext fun a => match a with | ⟨0, _⟩ => rfl

/-- The spread scalar is the word of 1/127 at every entry. -/
theorem scale_word (i : S8192.Idx) : val_main_v1 (F := F) i = Scalar.ofBits .f32 0x3C010204#32 := by
  rw [val_main_v1_apply, val_main_cst_apply]

/-- The reference's last stage is the row-wise dequantization of its two arguments. -/
theorem result_eq (q : (⟨S8192x8192, .i32⟩ : BufTy).Contents (Elt F)) (s : (⟨S8192, .f32⟩ : BufTy).Contents (Elt F)) :
    val_main_v5 (F := F) q s = rowDequant q s := by
  funext i
  rw [val_main_v5_apply, val_main_v0_apply, val_main_v4_apply, val_main_v3_apply, val_main_v2_apply, scale_word,
    row_of_entry]
  rfl

end Cert.ReferenceIdeal.RefValue

end
-- ==== Proof.BodyAt.lean ====
/-
  What the kernel body stores, read at one entry of its block.  The body loads a block of 1024 × 2048 integer weights
  and the matching 1024 × 1 column of row statistics, multiplies the column by the word of 1/127, spreads the scaled
  column over the 2048 lanes and multiplies it into the weights made float.  At the block entry (p, k) the spread column
  gives its entry (p, 0), whatever k is: the stored value is float (q (p, k)) · (col (p, 0) · w).
-/
import proofs.«164470_j85203561218574_2_alg».proof.Proof.Gen.KernelIdeal.Skeleton
import Idealize.ShloMosaic.Lib.ValueIdx
import Idealize.ShloMosaic.Lib.Pipeline.Value

noncomputable section

namespace Cert.KernelIdeal.BodyAt

open Cert.KernelIdeal Cert.KernelIdeal.Gen Idealize.ShloMosaic Idealize.ShloMosaic.ValueIdx

variable {F : FTy → Type} [FloatOps F]

/-- The scaled column spread over the lanes, at (p, k), is the scaled column at (p, 0). -/
theorem spread_at (col : Vec F S1024x1 .f32) (p : Fin 1024) (k : Fin 2048) :
    broadcastTo S1024x2048 col broadcasts_S1024x1_S1024x2048 (ix2 p k) = col (ix2 p (0 : Fin 1)) :=
  broadcastTo_apply col broadcasts_S1024x1_S1024x2048 (ix2 p k) (ix2 p (0 : Fin 1)) (fun a => match a with
    | ⟨0, _⟩ => by show p.val = if (1024 : Nat) = 1 then 0 else p.val; rw [if_neg (by decide)]
    | ⟨1, _⟩ => by show 0 = if (1 : Nat) = 1 then 0 else k.val; rw [if_pos rfl])

/-- The body's stored value at the block entry (p, k). -/
theorem stored_at (x0 : Vec F S1024x2048 .i32) (x1 : Vec F S1024x1 .f32) (p : Fin 1024) (k : Fin 2048) :
    k0_pay1 x0 x1 (ix2 p k)
      = FloatOps.mulf (FloatOps.sitofp .f32 (x0 (ix2 p k))) (FloatOps.mulf (x1 (ix2 p (0 : Fin 1))) (Scalar.ofBits .f32 0x3C010204#32)) := by
  show FloatOps.mulf (FloatOps.sitofp .f32 (x0 (ix2 p k)))
      (broadcastTo S1024x2048 (mulf (shapeCast S1024x1 x1 shapeCasts_S1024x1_S1024x1) (broadcast S1024x1 (Scalar.ofBits .f32 0x3C010204#32)))
        broadcasts_S1024x1_S1024x2048 (ix2 p k)) = _
  rw [spread_at, shapeCast_self]
  rfl

end Cert.KernelIdeal.BodyAt

end
-- ==== Proof.LibHostIdx.lean ====
/-
  Layout operations of the host programs read at an index, over literal ranks: a vector broadcast into a one-column
  matrix, a vector cast to a one-column or one-row matrix and back.  Each moves no data: the element at (e, 0) or (0, k)
  of the matrix is the vector's element e or k.
-/
import Idealize.ShloMosaic.Lib.ValueIdx
import Idealize.ShloMosaic.Lib.Pipeline.Value

noncomputable section

namespace Cert.Lib.HostIdx

open Idealize.ShloMosaic Idealize.ShloMosaic.ValueIdx

variable {α : Type}

/-- A vector broadcast along axis 0 into a one-column matrix: entry (e, 0) is the vector's entry e. -/
theorem bcastCol_apply {E : Nat} (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e (0 : Fin 1)) = v (ix1 e) :=
  broadcastInDim_apply _ h v (ix2 e (0 : Fin 1)) (ix1 e) (fun a => match a with
    | ⟨0, _⟩ => by
      show e.val = if E = 1 then 0 else e.val
      split
      · have := e.isLt; omega
      · rfl)

/-- A vector cast to a one-column matrix: entry (n, 0) is the vector's entry n. -/
theorem castCol_apply {N : Nat} (h : (⟨1, ![N]⟩ : Shape).ShapeCasts ⟨2, ![N, 1]⟩)
    (v : (⟨1, ![N]⟩ : Shape).Idx → α) (n : Fin N) :
    shapeCast ⟨2, ![N, 1]⟩ v h (ix2 n (0 : Fin 1)) = v (ix1 n) :=
  shapeCast_apply v h (ix2 n (0 : Fin 1)) (ix1 n) (by
    rw [Shape.rowMajor_val_one, Shape.rowMajor_val_two]
    show n.val = n.val * 1 + 0
    omega)

/-- A one-column matrix cast to a vector: entry n is the matrix's entry (n, 0). -/
theorem castFlat_apply {N : Nat} (h : (⟨2, ![N, 1]⟩ : Shape).ShapeCasts ⟨1, ![N]⟩)
    (v : (⟨2, ![N, 1]⟩ : Shape).Idx → α) (n : Fin N) :
    shapeCast ⟨1, ![N]⟩ v h (ix1 n) = v (ix2 n (0 : Fin 1)) :=
  shapeCast_apply v h (ix1 n) (ix2 n (0 : Fin 1)) (by
    rw [Shape.rowMajor_val_one, Shape.rowMajor_val_two]
    show n.val * 1 + 0 = n.val
    omega)

/-- A vector cast to a one-row matrix: entry (0, k) is the vector's entry k. -/
theorem castRow_apply {D : Nat} (h : (⟨1, ![D]⟩ : Shape).ShapeCasts ⟨2, ![1, D]⟩)
    (v : (⟨1, ![D]⟩ : Shape).Idx → α) (k : Fin D) :
    shapeCast ⟨2, ![1, D]⟩ v h (ix2 (0 : Fin 1) k) = v (ix1 k) :=
  shapeCast_apply v h (ix2 (0 : Fin 1) k) (ix1 k) (by
    rw [Shape.rowMajor_val_one, Shape.rowMajor_val_two]
    show k.val = 0 * D + k.val
    omega)

/-- A one-column matrix cast to a one-row matrix: entry (0, q) is the column's entry (q, 0). -/
theorem castColRow_apply {D : Nat} (h : (⟨2, ![D, 1]⟩ : Shape).ShapeCasts ⟨2, ![1, D]⟩)
    (v : (⟨2, ![D, 1]⟩ : Shape).Idx → α) (q : Fin D) :
    shapeCast ⟨2, ![1, D]⟩ v h (ix2 (0 : Fin 1) q) = v (ix2 q (0 : Fin 1)) :=
  shapeCast_apply v h (ix2 (0 : Fin 1) q) (ix2 q (0 : Fin 1)) (by
    rw [Shape.rowMajor_val_two, Shape.rowMajor_val_two]
    show q.val * 1 + 0 = 0 * D + q.val
    omega)

end Cert.Lib.HostIdx

end
-- ==== Proof.ScaleColumn.lean ====
/-
  The column of row statistics as the kernel's region finds it.  Before the region the host lays the vector of 8192
  statistics as a matrix of one column, [8192, 1]; nothing is computed, so the column's entry (r, 0) is the vector's
  entry r.
-/
import proofs.«164470_j85203561218574_2_alg».proof.Proof.Gen.KernelIdeal.Frame
import proofs.«164470_j85203561218574_2_alg».proof.Proof.LibHostIdx
import Idealize.ShloMosaic.Lib.StableHlo.Run

noncomputable section

namespace Cert.KernelIdeal.ScaleColumn

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- At region entry the column buffer holds the statistics vector cast to one column. -/
theorem column_eq (c : Dev nD) :
    (V m c main_v0 : S8192x1.Idx → Elt F .f32)
      = shapeCast S8192x1 (m ((c : Thread nD τ).loc main_arg1)) shapeCasts_S8192_S8192x1 := by
  dsimp only [Gen.V, Gen.hostOps0]
  after_results
  rfl

/-- Entry (r, 0) of the column is entry r of the statistics vector. -/
theorem column_at (c : Dev nD) (r : Fin 8192) :
    (V m c main_v0 : S8192x1.Idx → Elt F .f32) (ix2 r (0 : Fin 1)) = m ((c : Thread nD τ).loc main_arg1) (ix1 r) := by
  rw [column_eq]
  exact Cert.Lib.HostIdx.castCol_apply shapeCasts_S8192_S8192x1 _ r

end Cert.KernelIdeal.ScaleColumn

end
-- ==== Proof.KernelValue.lean ====
/-
  The kernel's result array is the row-wise dequantization of its arguments.  The grid has 8 × 4 points; point (a, b)
  works on rows 1024·a … 1024·a + 1023 and columns 2048·b … 2048·b + 2047 of the weight matrix and of the result, and on
  the same rows of the one-column matrix of statistics.  The weight block and the result block sit at the same place, and
  the column block covers the same rows, so the value the body stores at (p, k) of its block is the dequantization's
  entry at row 1024·a + p, column 2048·b + k.  Every entry (r, k) of the result lies in the block of the point
  (r / 1024, k / 2048), so the blocks written back fill the whole array.
-/
import proofs.«164470_j85203561218574_2_alg».proof.Proof.Gen.KernelIdeal.Frame
import proofs.«164470_j85203561218574_2_alg».proof.Proof.Gen.KernelIdeal.Points
import proofs.«164470_j85203561218574_2_alg».proof.Proof.RowDequant
import proofs.«164470_j85203561218574_2_alg».proof.Proof.BodyAt
import proofs.«164470_j85203561218574_2_alg».proof.Proof.ScaleColumn
import Idealize.ShloMosaic.Lib.Pipeline.Value

noncomputable section

namespace Cert.KernelIdeal.KernelValue

open Cert.KernelIdeal Cert.KernelIdeal.Gen Idealize.ShloMosaic Idealize.ShloMosaic.TcCoe Idealize.SL.Sem
open Idealize.ShloMosaic.ValueIdx Cert.RowDequant
open Idealize.ShloMosaic.Pipeline (Dat)

variable {F : FTy → Type} [FloatOps F]
variable (m : (ℓ : Loc nD τ sig) → Buf (Elt F) ℓ) (ρ : Dev nD → PrngReg)

theorem zero_offsets : (![0, 0] : Fin 2 → Nat) = fun _ => 0 := funext fun a => by fin_cases a <;> rfl

/-- The three index maps over the grid: weights and result move together on both axes, the statistics column follows
    the result's rows and stays at column block 0, and the result's block indices stay below 8 and 4. -/
theorem block_indices : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = 0
    ∧ win0_2.index t (0 : Fin 2) ≤ 7
    ∧ win0_2.index t (1 : Fin 2) ≤ 3 :=
  (by decide +kernel : ∀ t : Fin grid0.N, _)

/-- Every pair of a row block and a column block is some grid point's. -/
theorem every_block : ∀ (a : Fin 8) (b : Fin 4), ∃ t : Fin cfg0.N, win0_2.index t = ![a.val, b.val] :=
  (by decide +kernel : ∀ (a : Fin 8) (b : Fin 4), ∃ t : Fin grid0.N, win0_2.index t = ![a.val, b.val])

/-- One stored value against one entry of the dequantization: when the weight is read at the entry's index and the
    column at the entry's row, the body's three operations are the dequantization's. -/
theorem entry_eq (q : S8192x8192.Idx → Elt F .i32) (col : S8192x1.Idx → Elt F .f32) (s : S8192.Idx → Elt F .f32)
    (hcol : ∀ r : Fin 8192, col (ix2 r (0 : Fin 1)) = s (ix1 r))
    (i0 i : S8192x8192.Idx) (i1 : S8192x1.Idx) (r : Fin 8192) (h0 : i0 = i) (hr : i 0 = r)
    (h1 : i1 = ix2 r (0 : Fin 1)) :
    FloatOps.mulf (FloatOps.sitofp .f32 (q i0)) (FloatOps.mulf (col i1) (Scalar.ofBits .f32 0x3C010204#32))
      = rowDequant q s i := by
  subst h0 h1
  rw [hcol r]
  have e : (ix1 r : S8192.Idx) = ix1 (i0 0) := funext fun d => match d with | ⟨0, _⟩ => hr.symm
  exact congrArg (fun x => FloatOps.mulf (FloatOps.sitofp .f32 (q i0)) (FloatOps.mulf (s x) (Scalar.ofBits .f32 0x3C010204#32))) e

/-- What point `t` writes back is block `t` of the dequantization of the arrays as the region finds them. -/
theorem written_back (c : Dev nD) (t : Fin cfg0.N) :
    (dats m 0 c).flushed 2 t
      = ((cfg0.win 2).blk t).view.read (Elt F) (rowDequant (V m c main_arg0) (m ((c : Thread nD τ).loc main_arg1))) := by
  show (cfg0.win 2).cut (grid0.coords t) ((dats m 0 c).after 2 t) = _
  rw [after0_2]
  unfold out0_2
  rw [View.canon_unit_zero zero_offsets]
  simp only [View.ld_unit_zero (S := S1024x2048) zero_offsets, View.ld_unit_zero (S := S1024x1) zero_offsets]
  obtain ⟨e0, e1, e2, e3, e4, e5⟩ := block_indices t
  funext j
  obtain ⟨p, k, rfl⟩ : ∃ (p : Fin 1024) (k : Fin 2048), j = ix2 p k := ⟨j 0, j 1, eq_ix2 j⟩
  refine (BodyAt.stored_at (iblk m c 0 t) (iblk m c 1 t) p k).trans ?_
  show FloatOps.mulf (FloatOps.sitofp .f32 (V m c main_arg0 (((cfg0.win 0).blk t).view.emb (ix2 p k))))
      (FloatOps.mulf (V m c main_v0 (((cfg0.win 1).blk t).view.emb (ix2 p (0 : Fin 1)))) (Scalar.ofBits .f32 0x3C010204#32))
    = rowDequant (V m c main_arg0) (m ((c : Thread nD τ).loc main_arg1)) (((cfg0.win 2).blk t).view.emb (ix2 p k))
  have hp : p.val < 1024 := p.isLt
  have hk : k.val < 2048 := k.isLt
  refine entry_eq (V m c main_arg0) (V m c main_v0) (m ((c : Thread nD τ).loc main_arg1))
    (ScaleColumn.column_at m c) _ _ _ ⟨win0_2.index t (0 : Fin 2) * 1024 + p.val, by omega⟩ ?_ ?_ ?_
  · funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 2048 + 1 * k.val = win0_2.index t (1 : Fin 2) * 2048 + 1 * k.val; omega
  · apply Fin.ext
    show win0_2.index t (0 : Fin 2) * 1024 + 1 * p.val = win0_2.index t (0 : Fin 2) * 1024 + p.val
    omega
  · funext a; apply Fin.ext
    match a with
    | ⟨0, _⟩ => show win0_1.index t (0 : Fin 2) * 1024 + 1 * p.val = win0_2.index t (0 : Fin 2) * 1024 + p.val; omega
    | ⟨1, _⟩ => show win0_1.index t (1 : Fin 2) * 1 + 1 * 0 = 0; omega

/-- An entry of the result lies in point `t`'s block iff each coordinate lies in the block's range on its axis. -/
theorem in_block (t : Fin cfg0.N) (i : S8192x8192.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v1).slice (win0_2.rect t)).set ↔ _
  rw [View.set_slice_whole, Rect.mem_set_unit]
  exact Iff.rfl

/-- Every entry (r, k) of the result is in the block of the point (r / 1024, k / 2048), which writes back. -/
theorem blocks_fill (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := every_block ⟨(i 0).val / 1024, by omega⟩ ⟨(i 1).val / 2048, by omega⟩
  have q0 : win0_2.index t (0 : Fin 2) = (i 0).val / 1024 := congrFun ht 0
  have q1 : win0_2.index t (1 : Fin 2) = (i 1).val / 2048 := congrFun ht 1
  refine ⟨t, flush0_2 t, ?_⟩
  rw [in_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 2048 ≤ (i 1).val ∧ (i 1).val < win0_2.index t (1 : Fin 2) * 2048 + 2048; omega

/-- The result array after the run is the dequantization of the two arguments as launched. -/
theorem result_array (c : Dev nD) :
    (dats m 0 c).arrAt 2 cfg0.N
      = rowDequant (m ((c : Thread nD τ).loc main_arg0)) (m ((c : Thread nD τ).loc main_arg1)) := by
  rw [← V_main_arg0 m c]
  exact (dats m 0 c).arrAt_eq_of_cover 2 (rowDequant (V m c main_arg0) (m ((c : Thread nD τ).loc main_arg1)))
    (fun t _ => written_back m c t) blocks_fill

/-- Every weakly fair execution of the kernel program terminates with the result buffer at the dequantization of the
    arguments, and the arguments as launched. -/
theorem run : θ_run defs (onTc (τ := τ) (main (F := F))) ⟨m, fun _ => 0, ρ⟩ fun r => ∀ c : Dev nD,
      r.2.mem ((c : Thread nD τ).loc main_v1)
        = rowDequant (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (result_array m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KernelIdeal.KernelValue

end
-- ==== Proof.lean ====
/-
  The kernel and its reference both compute the row-wise dequantization of an integer weight matrix q by a vector s of
  row statistics: entry (r, k) of the result is float (q (r, k)) · (s r · w), where w is the binary word 0x3C010204 both
  programs carry for 1/127.  The two programs group the product the same way and carry the same word, so they agree
  entry by entry with no law of arithmetic and no use of the inputs' finiteness.
  The kernel walks an 8 × 4 grid of blocks of 1024 rows and 2048 columns; the block a grid point writes back is that
  block of the dequantization (Proof/KernelValue.lean, over Proof/BodyAt.lean for the body's stored value at an entry
  and Proof/ScaleColumn.lean for the one-column matrix the host lays the statistics in), and the blocks fill the array.
  The reference's seven host operations read at an entry give the same expression (Proof/RefValue.lean).  Both are
  stated against the one function of Proof/RowDequant.lean.  The idealization rewrote no operation, so that conjunct
  has nothing to prove; the three frames are the generated frame runs.
-/
import proofs.«164470_j85203561218574_2_alg».proof.Defs
import proofs.«164470_j85203561218574_2_alg».proof.Proof.Gen.Kernel
import proofs.«164470_j85203561218574_2_alg».proof.Proof.Gen.Kernel.Skeleton
import proofs.«164470_j85203561218574_2_alg».proof.Proof.Gen.Kernel.Launch
import proofs.«164470_j85203561218574_2_alg».proof.Proof.Gen.Kernel.Points
import proofs.«164470_j85203561218574_2_alg».proof.Proof.Gen.Kernel.Frame
import proofs.«164470_j85203561218574_2_alg».proof.Proof.Gen.KernelIdeal
import proofs.«164470_j85203561218574_2_alg».proof.Proof.Gen.KernelIdeal.Skeleton
import proofs.«164470_j85203561218574_2_alg».proof.Proof.Gen.KernelIdeal.Launch
import proofs.«164470_j85203561218574_2_alg».proof.Proof.Gen.KernelIdeal.Points
import proofs.«164470_j85203561218574_2_alg».proof.Proof.Gen.KernelIdeal.Frame
import proofs.«164470_j85203561218574_2_alg».proof.Proof.Gen.ReferenceIdeal
import proofs.«164470_j85203561218574_2_alg».proof.Proof.Gen.Pre_finite_inputs
import proofs.«164470_j85203561218574_2_alg».proof.Proof.Gen.ReferenceIdeal.Run
import proofs.«164470_j85203561218574_2_alg».proof.Proof.Gen.ReferenceIdeal.Read
import proofs.«164470_j85203561218574_2_alg».proof.Proof.RowDequant
import proofs.«164470_j85203561218574_2_alg».proof.Proof.RefValue
import proofs.«164470_j85203561218574_2_alg».proof.Proof.KernelValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on q and s, the kernel's result array and the reference's are both the row-wise
    dequantization of q and s. -/
theorem algebraic : Cert.algebraic_KernelIdeal_ReferenceIdeal := by
  intro m ρ m' ρ' _ hagree
  refine ⟨fun c => Cert.RowDequant.rowDequant
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
